-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x4096 : Shape := ⟨4, ![2, 16, 1024, 4096]⟩
abbrev S4x4096 : Shape := ⟨2, ![4, 4096]⟩
abbrev S_ : Shape := ⟨0, ![]⟩
abbrev S4 : Shape := ⟨1, ![4]⟩

class Facts : Prop where
  bcast_S_S2x16x1024x4096 : S_.BroadcastsInDim S2x16x1024x4096 (![] : Fin 0 → Fin S2x16x1024x4096.rank)
  reducesTo_S2x16x1024x4096_S_d0_1_2_3 : S2x16x1024x4096.ReducesTo [0, 1, 2, 3] S_
  h_S_ : 0 < S_.numel
  reducesTo_S4x4096_S4_d1 : S4x4096.ReducesTo [1] S4
  bcast_S_S4 : S_.BroadcastsInDim S4 (![] : Fin 0 → Fin S4.rank)
  reducesTo_S4_S_d0 : S4.ReducesTo [0] S_

variable [Facts]

def fn {F : FTy → Type} [FloatOps F] (main_arg0 : FVec F S2x16x1024x4096 .f32) (main_arg1 : IVec S4x4096 32) : IVec S_ 1 :=
  let main_v0 : FVec F S2x16x1024x4096 .f32 := Host.absf main_arg0
  let main_cst : FVec F S_ .f32 := constant S_ .f32 0x7F800000#32
  let main_v1 : FVec F S2x16x1024x4096 .f32 := broadcastInDim S2x16x1024x4096 ![] bcast_S_S2x16x1024x4096 main_cst
  let main_v2 : IVec S2x16x1024x4096 1 := cmpf .olt main_v0 main_v1
  let main_c : IVec S_ 1 := constantI S_ 1 1#1
  let main_v3 : IVec S_ 1 := (fun x v => Host.reduce IntOp.andi x v reducesTo_S2x16x1024x4096_S_d0_1_2_3 h_S_) main_v2 main_c
  let main_v4 : FVec F S4x4096 .f32 := sitofp .f32 main_arg1
  let main_cst_0 : FVec F S_ .f32 := constant S_ .f32 0x00000000#32
  let main_v5 : FVec F S4 .f32 := (fun x v => Host.reduceAdd x v reducesTo_S4x4096_S4_d1 h_S_) main_v4 main_cst_0
  let main_cst_1 : FVec F S_ .f32 := constant S_ .f32 0x00000000#32
  let main_v6 : FVec F S4 .f32 := broadcastInDim S4 ![] bcast_S_S4 main_cst_1
  let main_v7 : IVec S4 1 := cmpf .une main_v5 main_v6
  let main_c_2 : IVec S_ 1 := constantI S_ 1 1#1
  let main_v8 : IVec S_ 1 := (fun x v => Host.reduce IntOp.andi x v reducesTo_S4_S_d0 h_S_) main_v7 main_c_2
  let main_v9 : IVec S_ 1 := andi main_v3 main_v8
  main_v9
-- ==== Kernel.lean ====
abbrev S2x16x1024x4096 : Shape := ⟨4, ![2, 16, 1024, 4096]⟩
abbrev S4x4096 : Shape := ⟨2, ![4, 4096]⟩
abbrev S_ : Shape := ⟨0, ![]⟩
abbrev S4 : Shape := ⟨1, ![4]⟩
abbrev S4x1 : Shape := ⟨2, ![4, 1]⟩
abbrev S2x1024x4 : Shape := ⟨3, ![2, 1024, 4]⟩
abbrev S2x1x256x4096 : Shape := ⟨4, ![2, 1, 256, 4096]⟩
abbrev S2x256x4 : Shape := ⟨3, ![2, 256, 4]⟩
abbrev S2x256x4096 : Shape := ⟨3, ![2, 256, 4096]⟩
abbrev S2x256 : Shape := ⟨2, ![2, 256]⟩
abbrev S2x256x1 : Shape := ⟨3, ![2, 256, 1]⟩
abbrev S4096x4 : Shape := ⟨2, ![4096, 4]⟩
abbrev S1x256x4096 : Shape := ⟨3, ![1, 256, 4096]⟩
abbrev S256x4096 : Shape := ⟨2, ![256, 4096]⟩
abbrev S256x4 : Shape := ⟨2, ![256, 4]⟩
abbrev S1x256x4 : Shape := ⟨3, ![1, 256, 4]⟩
abbrev S4x2x1024 : Shape := ⟨3, ![4, 2, 1024]⟩

abbrev nBuf : Space → Nat
  | .hbm => 13
  | .vmem => 5
  | .smem => 0
  | _ => 0

abbrev bufTy : (tb : Table) → Fin (tcTables nBuf tb) → BufTy
  | .hbm, ⟨0, _⟩ => ⟨S2x16x1024x4096, .f32⟩
  | .hbm, ⟨1, _⟩ => ⟨S4x4096, .i32⟩
  | .hbm, ⟨2, _⟩ => ⟨S4x4096, .f32⟩
  | .hbm, ⟨3, _⟩ => ⟨S_, .f32⟩
  | .hbm, ⟨4, _⟩ => ⟨S4, .f32⟩
  | .hbm, ⟨5, _⟩ => ⟨S4x1, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S2x1024x4, .f32⟩
  | .hbm, ⟨12, _⟩ => ⟨S4x2x1024, .f32⟩
  | .local _ .vmem, ⟨0, _⟩ => ⟨S2x1x256x4096, .f32⟩
  | .local _ .vmem, ⟨1, _⟩ => ⟨S2x1x256x4096, .f32⟩
  | .local _ .vmem, ⟨2, _⟩ => ⟨S4x4096, .f32⟩
  | .local _ .vmem, ⟨3, _⟩ => ⟨S2x256x4, .f32⟩
  | .local _ .vmem, ⟨4, _⟩ => ⟨S2x256x4, .f32⟩
  | _, _ => ⟨S2x16x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4x4096_S4_d1 : S4x4096.ReducesTo [1] S4
  h_S_ : 0 < S_.numel
  bcast_S4_S4x1_0 : S4.BroadcastsInDim S4x1 (![0] : Fin 1 → Fin S4x1.rank)
  bcast_S4x1_S4x4096_0_1 : S4x1.BroadcastsInDim S4x4096 (![0, 1] : Fin 2 → Fin S4x4096.rank)
  bcast_S_S4x4096 : S_.BroadcastsInDim S4x4096 (![] : Fin 0 → Fin S4x4096.rank)
  inb_S2x256x4_S2x256x4_0_0_0 : ∀ a, (![0, 0, 0] : Fin 3 → Nat) a + S2x256x4.size a ≤ S2x256x4.size a
  h_S2x256x4 : 0 < S2x256x4.numel
  inb_S2x1x256x4096_S2x1x256x4096_0_0_0_0 : ∀ a, (![0, 0, 0, 0] : Fin 4 → Nat) a + S2x1x256x4096.size a ≤ S2x1x256x4096.size a
  h_S2x1x256x4096 : 0 < S2x1x256x4096.numel
  shapeCasts_S2x1x256x4096_S2x256x4096 : S2x1x256x4096.ShapeCasts S2x256x4096
  reduces_S2x256x4096_S2x256 : S2x256x4096.Reduces [2] S2x256
  shapeCasts_S2x256_S2x256x1 : S2x256.ShapeCasts S2x256x1
  broadcasts_S2x256x1_S2x256x4096 : S2x256x1.Broadcasts S2x256x4096
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  transposes_S4x4096_p1_0_S4096x4 : S4x4096.Transposes [1, 0] S4096x4
  slices_S2x256x4096_o0_0_0_S1x256x4096 : S2x256x4096.Slices ![0, 0, 0] S1x256x4096
  shapeCasts_S1x256x4096_S256x4096 : S1x256x4096.ShapeCasts S256x4096
  slices_S2x256x4096_o1_0_0_S1x256x4096 : S2x256x4096.Slices ![1, 0, 0] S1x256x4096
  shapeCasts_S256x4_S1x256x4 : S256x4.ShapeCasts S1x256x4
  concatenates_S1x256x4_S1x256x4_S2x256x4_d0 : Shape.Concatenates [S1x256x4, S1x256x4] S2x256x4 0
  shapeCasts_S2x256x4_S2x256x4 : S2x256x4.ShapeCasts S2x256x4
  broadcasts_S2x256x1_S2x256x4 : S2x256x1.Broadcasts S2x256x4
  transposes_S2x1024x4_S4x2x1024_2_0_1 : S2x1024x4.Transposes [2, 0, 1] S4x2x1024
  dot_S256x4096_S4096x4_S256x4_1_0_0_1_n_n_wf : DotDims.WF S256x4096 S4096x4 S256x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x256x4096.size a ≤ S2x16x1024x4096.size a
  hwx0_0 : ∀ i : grid0.Coords, EltTy.bits .f32 = 32 ∨ (Rect.block (s := S2x16x1024x4096) S2x1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x4096.size a
  hwx0_1 : ∀ i : grid0.Coords, EltTy.bits .f32 = 32 ∨ (Rect.block (s := S4x4096) S4x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x4.size a ≤ S2x1024x4.size a
  hwx0_2 : ∀ i : grid0.Coords, EltTy.bits .f32 = 32 ∨ (Rect.block (s := S2x1024x4) S2x256x4.size (cc0_transform_2 i) (hinb0_2 i)).WholeWords (EltTy.packing .f32)

variable [Facts₀]

def dot_S256x4096_S4096x4_S256x4_1_0_0_1_n_n : DotDims S256x4096 S4096x4 S256x4 where
  lhsContracting := [1]
  rhsContracting := [0]
  lhsNonContracting := [0]
  rhsNonContracting := [1]
  lhsBatch := []
  rhsBatch := []
  wf := dot_S256x4096_S4096x4_S256x4_1_0_0_1_n_n_wf

abbrev win0_0 : Pipeline.Window sig grid0 :=
  Pipeline.Window.ofSpec (Memref.whole main_arg0) S2x1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2x256x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x1024x4096 : Shape := ⟨4, ![2, 16, 1024, 4096]⟩
abbrev S4x4096 : Shape := ⟨2, ![4, 4096]⟩
abbrev S_ : Shape := ⟨0, ![]⟩
abbrev S2x16x1024 : Shape := ⟨3, ![2, 16, 1024]⟩
abbrev S2x16x1024x1 : Shape := ⟨4, ![2, 16, 1024, 1]⟩
abbrev S4x2x16x1024 : Shape := ⟨4, ![4, 2, 16, 1024]⟩
abbrev S4 : Shape := ⟨1, ![4]⟩
abbrev S4x1x1x1 : Shape := ⟨4, ![4, 1, 1, 1]⟩
abbrev S4x2x1024 : Shape := ⟨3, ![4, 2, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x16x1024x4096, .f32⟩
  | .hbm, ⟨1, _⟩ => ⟨S4x4096, .i32⟩
  | .hbm, ⟨2, _⟩ => ⟨S4x4096, .f32⟩
  | .hbm, ⟨3, _⟩ => ⟨S_, .f32⟩
  | .hbm, ⟨4, _⟩ => ⟨S2x16x1024, .f32⟩
  | .hbm, ⟨5, _⟩ => ⟨S_, .f32⟩
  | .hbm, ⟨6, _⟩ => ⟨S2x16x1024, .f32⟩
  | .hbm, ⟨7, _⟩ => ⟨S2x16x1024, .f32⟩
  | .hbm, ⟨8, _⟩ => ⟨S2x16x1024x1, .f32⟩
  | .hbm, ⟨9, _⟩ => ⟨S2x16x1024x4096, .f32⟩
  | .hbm, ⟨10, _⟩ => ⟨S2x16x1024x4096, .f32⟩
  | .hbm, ⟨11, _⟩ => ⟨S2x16x1024x4096, .f32⟩
  | .hbm, ⟨12, _⟩ => ⟨S_, .f32⟩
  | .hbm, ⟨13, _⟩ => ⟨S2x16x1024, .f32⟩
  | .hbm, ⟨14, _⟩ => ⟨S2x16x1024x1, .f32⟩
  | .hbm, ⟨15, _⟩ => ⟨S2x16x1024x4096, .f32⟩
  | .hbm, ⟨16, _⟩ => ⟨S2x16x1024x4096, .f32⟩
  | .hbm, ⟨17, _⟩ => ⟨S4x2x16x1024, .f32⟩
  | .hbm, ⟨18, _⟩ => ⟨S_, .f32⟩
  | .hbm, ⟨19, _⟩ => ⟨S4, .f32⟩
  | .hbm, ⟨20, _⟩ => ⟨S4x1x1x1, .f32⟩
  | .hbm, ⟨21, _⟩ => ⟨S4x2x16x1024, .f32⟩
  | .hbm, ⟨22, _⟩ => ⟨S4x2x16x1024, .f32⟩
  | .hbm, ⟨23, _⟩ => ⟨S_, .f32⟩
  | .hbm, ⟨24, _⟩ => ⟨S4x2x1024, .f32⟩
  | .hbm, ⟨25, _⟩ => ⟨S_, .f32⟩
  | .hbm, ⟨26, _⟩ => ⟨S4x2x1024, .f32⟩
  | .hbm, ⟨27, _⟩ => ⟨S4x2x1024, .f32⟩
  | _, _ => ⟨S2x16x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S2x16x1024x4096_S2x16x1024_d3 : S2x16x1024x4096.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x4096_0_1_2_3 : S2x16x1024x1.BroadcastsInDim S2x16x1024x4096 (![0, 1, 2, 3] : Fin 4 → Fin S2x16x1024x4096.rank)
  reducesTo_S4x4096_S4_d1 : S4x4096.ReducesTo [1] S4
  bcast_S4_S4x1x1x1_0 : S4.BroadcastsInDim S4x1x1x1 (![0] : Fin 1 → Fin S4x1x1x1.rank)
  bcast_S4x1x1x1_S4x2x16x1024_0_1_2_3 : S4x1x1x1.BroadcastsInDim S4x2x16x1024 (![0, 1, 2, 3] : Fin 4 → Fin S4x2x16x1024.rank)
  reducesTo_S4x2x16x1024_S4x2x1024_d2 : S4x2x16x1024.ReducesTo [2] S4x2x1024
  bcast_S_S4x2x1024 : S_.BroadcastsInDim S4x2x1024 (![] : Fin 0 → Fin S4x2x1024.rank)
  dot_S4x4096_S2x16x1024x4096_S4x2x16x1024_1_3_0_012_n_n_wf : DotDims.WF S4x4096 S2x16x1024x4096 S4x2x16x1024 [1] [3] [0] [0, 1, 2] [] []

variable [Facts₀]

def dot_S4x4096_S2x16x1024x4096_S4x2x16x1024_1_3_0_012_n_n : DotDims S4x4096 S2x16x1024x4096 S4x2x16x1024 where
  lhsContracting := [1]
  rhsContracting := [3]
  lhsNonContracting := [0]
  rhsNonContracting := [0, 1, 2]
  lhsBatch := []
  rhsBatch := []
  wf := dot_S4x4096_S2x16x1024x4096_S4x2x16x1024_1_3_0_012_n_n_wf

class Facts : Prop extends Facts₀ where

variable [Facts]
-- ==== Proof.MaskedMeanLaw.lean ====
/-
  The arithmetic that joins the two programs.

  For one output entry (class c, batch b, row s) write, for each head h, x_h(r) for the attention row, m_h for its
  maximum, e_h(r) = exp (x_h(r) - m_h) > 0 for the shifted exponentials, Z_h = Σ_r e_h(r) for their sum, μ(r) for the
  class's mask row read as reals and n = Σ_r μ(r) for its sum. One program normalises the mask first and the softmax last,
      Σ_h (Σ_r e_h(r) · ((μ(r) / n) / 16)) / Z_h,
  the other normalises the softmax first and the mask last,
      (Σ_h (Σ_r μ(r) · (e_h(r) / Z_h)) / n) / 16.
  Over the reals both are Σ_h Σ_r e_h(r) μ(r) / (16 n Z_h) (`law`). Over the extended reals the two expressions are
  that real number as soon as every x_h(r) and μ(r) is finite and n ≠ 0: then m_h is finite (a maximum of finitely
  many reals, at least one), every e_h(r) is a positive real, Z_h is a positive real, and no division meets a zero or an
  infinity (`kernel_eq_reference`).
-/
import Idealize.ShloMosaic.PureOps.Ideal

noncomputable section

namespace MaskedMean

open Finset Idealize.ShloMosaic

/-- Mask-first / softmax-last equals softmax-first / mask-last, over any finite index types (in a field, where division
    by zero is zero, the identity needs no side condition). -/
theorem law {H R : Type*} [Fintype H] [Fintype R] (e : H → R → ℝ) (S : H → ℝ) (μ : R → ℝ) (n : ℝ) :
    (∑ h, (∑ r, e h r * ((μ r / n) / 16)) / S h) = (∑ h, (∑ r, μ r * (e h r / S h)) / n) / 16 := by
  rw [Finset.sum_div]
  refine Finset.sum_congr rfl fun h _ => ?_
  rw [Finset.sum_div, Finset.sum_div, Finset.sum_div]
  refine Finset.sum_congr rfl fun r _ => ?_
  simp only [div_eq_mul_inv]
  ring

/-- A finite sum of reals, read in the extended reals, is the sum of the summands read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  ring

/-- The maximum of finitely many reals, at least one, taken from -∞, is a real. -/
theorem fold_max_coe {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by rw [Finset.fold_singleton]; exact max_bot_right _⟩
  | cons a s ha hs ih =>
    obtain ⟨M, hM⟩ := ih
    refine ⟨max (f a) M, ?_⟩
    rw [Finset.fold_cons, hM]
    exact (EReal.coe_strictMono.monotone.map_max).symm

/-! ## The constants the programs spell -/

/-- The word of -∞, from which both programs take a row's maximum. -/
abbrev negInf : EReal := Ideal.ofBits .f32 0xFF800000#32
/-- The word of +0.0, from which both programs sum. -/
abbrev zero : EReal := Ideal.ofBits .f32 0x00000000#32
/-- The word of 16.0, the number of heads. -/
abbrev sixteen : EReal := Ideal.ofBits .f32 0x41800000#32

theorem negInf_eq : negInf = ⊥ := by simp [negInf, Ideal.ofBits, Ideal.ieee]
theorem zero_eq : zero = 0 := by simp [zero, Ideal.ofBits, Ideal.ieee]
theorem sixteen_eq : sixteen = ((16 : ℝ) : EReal) := by
  simp [sixteen, Ideal.ofBits, Ideal.ieee, -EReal.coe_mul]; norm_num

/-! ## The two programs' entries, as functions of the rows -/

variable {H R : Type} [Fintype H] [Fintype R]

/-- A row's maximum, from -∞. -/
def rowMax (x : R → EReal) : EReal := Finset.univ.fold max negInf x
/-- A row's shifted exponentials. -/
def E (x : R → EReal) (r : R) : EReal := Ideal.exp (x r - rowMax x)
/-- Their sum. -/
def Z (x : R → EReal) : EReal := ∑ r, E x r

/-- A class's mask sum, from +0.0. -/
def count (μ : R → EReal) : EReal := zero + ∑ r, μ r
/-- The mask row normalised by its sum and by the number of heads. -/
def normMask (μ : R → EReal) (r : R) : EReal := Ideal.div (Ideal.div (μ r) (count μ)) sixteen

/-- One head's term in the mask-first order: the exponentials against the normalised mask, over their sum. -/
def headTerm (x : R → EReal) (w : R → EReal) : EReal := Ideal.div (∑ r, E x r * w r) (Z x)
/-- The entry in the mask-first order: from +0.0, the heads' terms added. -/
def maskFirst (x : H → R → EReal) (μ : R → EReal) : EReal := zero + ∑ h, headTerm (x h) (normMask μ)

/-- The entry in the softmax-first order. -/
def softmaxFirst (x : H → R → EReal) (μ : R → EReal) : EReal :=
  Ideal.div (zero + ∑ h, Ideal.div (∑ r, μ r * Ideal.div (E (x h) r) (zero + Z (x h))) (count μ)) sixteen

/-- Finite rows, a finite mask row whose sum is not zero: the two orders give the same extended real. -/
theorem kernel_eq_reference [Nonempty R] (x : H → R → EReal) (μ : R → EReal)
    (hx : ∀ h r, ∃ a : ℝ, x h r = a) (hμ : ∀ r, ∃ a : ℝ, μ r = a) (hn : count μ ≠ 0) :
    maskFirst x μ = softmaxFirst x μ := by
  choose xr hxr using hx
  choose μr hμr using hμ
  obtain rfl : x = fun h r => (xr h r : EReal) := funext fun h => funext fun r => hxr h r
  obtain rfl : μ = fun r => (μr r : EReal) := funext hμr
  -- the maxima are real
  have hM : ∀ h, ∃ M : ℝ, rowMax (fun r => (xr h r : EReal)) = M := fun h => by
    unfold rowMax; rw [negInf_eq]; exact fold_max_coe _ Finset.univ_nonempty _
  choose M hM using hM
  -- the shifted exponentials are positive reals, and so is their sum
  have hE : ∀ h r, E (fun r => (xr h r : EReal)) r = ((Real.exp (xr h r - M h) : ℝ) : EReal) := fun h r => by
    unfold E; rw [hM h, ← EReal.coe_sub]; rfl
  have hZ : ∀ h, Z (fun r => (xr h r : EReal)) = ((∑ r, Real.exp (xr h r - M h) : ℝ) : EReal) := fun h => by
    unfold Z; rw [coe_sum]; exact Finset.sum_congr rfl fun r _ => hE h r
  have hpos : ∀ h, (∑ r, Real.exp (xr h r - M h) : ℝ) ≠ 0 := fun h =>
    (Finset.sum_pos (fun r _ => Real.exp_pos _) Finset.univ_nonempty).ne'
  -- the mask sum is a real, not zero
  have hc : count (fun r => (μr r : EReal)) = ((∑ r, μr r : ℝ) : EReal) := by
    unfold count; rw [zero_eq, zero_add, coe_sum]
  have hn' : (∑ r, μr r : ℝ) ≠ 0 := fun h0 => hn (by rw [hc, h0]; rfl)
  have h16 : (16 : ℝ) ≠ 0 := by norm_num
  -- both entries as reals
  have hK : maskFirst (fun h r => (xr h r : EReal)) (fun r => (μr r : EReal))
      = ((∑ h, (∑ r, Real.exp (xr h r - M h) * ((μr r / ∑ r, μr r) / 16)) / ∑ r, Real.exp (xr h r - M h) : ℝ) : EReal) := by
    unfold maskFirst headTerm normMask
    rw [zero_eq, zero_add, coe_sum]
    refine Finset.sum_congr rfl fun h _ => ?_
    rw [hZ h, ← div_coe_coe _ (hpos h)]
    refine congrArg (Ideal.div · _) ?_
    rw [coe_sum]
    refine Finset.sum_congr rfl fun r _ => ?_
    rw [hE h r, hc, sixteen_eq, div_coe_coe _ hn', div_coe_coe _ h16, ← EReal.coe_mul]
  have hR : softmaxFirst (fun h r => (xr h r : EReal)) (fun r => (μr r : EReal))
      = (((∑ h, (∑ r, μr r * (Real.exp (xr h r - M h) / ∑ r, Real.exp (xr h r - M h))) / ∑ r, μr r) / 16 : ℝ) : EReal) := by
    unfold softmaxFirst
    rw [sixteen_eq, ← div_coe_coe _ h16]
    refine congrArg (Ideal.div · _) ?_
    rw [zero_eq, zero_add, coe_sum]
    refine Finset.sum_congr rfl fun h _ => ?_
    rw [hc, ← div_coe_coe _ hn']
    refine congrArg (Ideal.div · _) ?_
    rw [coe_sum]
    refine Finset.sum_congr rfl fun r _ => ?_
    rw [hE h r, zero_add, hZ h, div_coe_coe _ (hpos h), ← EReal.coe_mul]
  rw [hK, hR, law]

end MaskedMean

end
-- ==== Proof.LibKeepdims.lean ====
/-
  Layout operations of a row reduction kept as a unit axis ("keepdims"), read at an index by coordinates, and the two
  row reductions over the last axis of a rank-3 vector read at an index.

  A block [a, 1, b, c] viewed [a, b, c]; a reduced [a, b] viewed as the column [a, b, 1]; that column broadcast along
  the last axis to [a, b, n]; the sum and the maximum over the last axis of [a, b, n] at (i, j), as the sum and the
  fold of `max` over k of the entries (i, j, k).
-/
import Idealize.ShloMosaic.Lib.Pipeline.Value
import Idealize.ShloMosaic.Lib.ValueIdx
import Idealize.ShloMosaic.Lib.ValueLayout
import Idealize.ShloMosaic.PureOps.Ideal.Laws

noncomputable section

namespace Keepdims

open Idealize.ShloMosaic Idealize.ShloMosaic.ValueIdx

variable {α : Type}

/-- An `[a, 1, b, c]` array cast to `[a, b, c]` reads, at `(i, j, k)`, the operand at `(i, 0, j, k)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- An `[a, b]` array cast to the column `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, b, 1]` broadcast to `[a, b, n]` reads, at `(i, j, k)`, the column at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The reduced index `(i, j)` with the last coordinate `k` put back is `(i, j, k)`. -/
theorem lift_last3 {a b n : ℕ} (h : (⟨3, ![a, b, n]⟩ : Shape).Reduces [2] (⟨2, ![a, b]⟩ : Shape)) (i : Fin a) (j : Fin b)
    (k : Fin ((⟨3, ![a, b, n]⟩ : Shape).size 2)) : h.lift (ix2 i j) k = ix3 i j (⟨k.val, k.isLt⟩ : Fin n) := by
  funext d; apply Fin.ext
  match d with
  | ⟨0, _⟩ => rfl
  | ⟨1, _⟩ => rfl
  | ⟨2, _⟩ => rfl

variable {φ : FTy}

/-- At the ideal values, a sum over the last axis of `[a, b, n]` at `(i, j)` is the sum over `k` of the entries `(i, j, k)`. -/
theorem multiReduction_add_last3 {a b n : ℕ} (x : FVec Ideal (⟨3, ![a, b, n]⟩ : Shape) φ) (acc : BitVec φ.bits)
    (h : (⟨3, ![a, b, n]⟩ : Shape).Reduces [2] (⟨2, ![a, b]⟩ : Shape)) (hφ : FKind.Formats φ) (hacc : acc = FKind.add.neutral φ hφ)
    (i : Fin a) (j : Fin b) :
    multiReduction .add [2] (⟨2, ![a, b]⟩ : Shape) x acc h hφ hacc (ix2 i j) = ∑ k : Fin n, x (ix3 i j k) := by
  rw [Ideal.multiReduction_add_single]
  exact Finset.sum_congr rfl fun k _ => congrArg x (lift_last3 h i j k)

/-- At the ideal values, a maximum over the last axis of `[a, b, n]` at `(i, j)` is the fold of `max`, from the accumulator's
    value, over `k` of the entries `(i, j, k)`. -/
theorem multiReduction_max_last3 {a b n : ℕ} (x : FVec Ideal (⟨3, ![a, b, n]⟩ : Shape) φ) (acc : BitVec φ.bits)
    (h : (⟨3, ![a, b, n]⟩ : Shape).Reduces [2] (⟨2, ![a, b]⟩ : Shape)) (hφ : FKind.Formats φ) (hacc : acc = FKind.maximumf.neutral φ hφ)
    (i : Fin a) (j : Fin b) :
    multiReduction .maximumf [2] (⟨2, ![a, b]⟩ : Shape) x acc h hφ hacc (ix2 i j)
      = (Finset.univ : Finset (Fin n)).fold max (Ideal.ofBits φ acc) (fun k => x (ix3 i j k)) := by
  rw [Ideal.multiReduction_maximumf_single]
  exact congrArg (fun f => Finset.fold max (Ideal.ofBits φ acc) f (Finset.univ : Finset (Fin n)))
    (funext fun k => congrArg x (lift_last3 h i j k))

/-- The reduced index `i` of a matrix's row sums with the column `k` put back is `(i, k)`. -/
theorem lift_last2 {a n : ℕ} (h : (⟨2, ![a, n]⟩ : Shape).Reduces [1] (⟨1, ![a]⟩ : Shape)) (i : Fin a)
    (k : Fin ((⟨2, ![a, n]⟩ : Shape).size 1)) : h.lift (ix1 i) k = ix2 i (⟨k.val, k.isLt⟩ : Fin n) := by
  funext d; apply Fin.ext
  match d with
  | ⟨0, _⟩ => rfl
  | ⟨1, _⟩ => rfl

/-- At the ideal values, the host's sum of each row of an `[a, n]` matrix, at row `i`, is the initial value plus the sum
    over `k` of the entries `(i, k)`. -/
theorem hostReduceAdd_rows {a n : ℕ} (x : FVec Ideal (⟨2, ![a, n]⟩ : Shape) φ) (init : FVec Ideal (⟨0, ![]⟩ : Shape) φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (i : Fin a) :
    Host.reduceAdd x init h' hu (ix1 i) = init (Shape.Idx.first hu) + ∑ k : Fin n, x (ix2 i k) := by
  simp only [Host.reduceAdd, Ideal.hostReduceAdd_def]
  rw [Ideal.hostReduceAdd_single h' h]
  exact congrArg (_ + ·) (Finset.sum_congr rfl fun k _ => congrArg x (lift_last2 h i k))

end Keepdims

end
-- ==== Proof.Precondition.lean ====
/-
  What the precondition says of the inputs.

  The precondition is one bit: every entry of the attention tensor is below +∞ in absolute value, and every class's
  mask sum — the mask read as reals, summed from +0.0 — is not zero. Read back: every attention entry is a real number,
  and no class's mask sum is zero.
-/
import proofs.«162008_j51453708206400_2_alg».proof.Pre_finite_inputs
import proofs.«162008_j51453708206400_2_alg».proof.Proof.MaskedMeanLaw
import proofs.«162008_j51453708206400_2_alg».proof.Proof.LibKeepdims
import Idealize.ShloMosaic.Lib.ReduceAll
import Idealize.ShloMosaic.Lib.Affine

noncomputable section

namespace Cert.Pre_finite_inputs.Decode

open Cert.Pre_finite_inputs Idealize.ShloMosaic Idealize.ShloMosaic.ValueIdx MaskedMean Keepdims

instance : Subsingleton S_.Idx := ⟨fun a b => funext fun d => d.elim0⟩

variable [Facts]
open Facts

theorem posInf_eq : Ideal.ofBits .f32 0x7F800000#32 = ⊤ := by simp [Ideal.ofBits, Ideal.ieee]

/-- A bit made from a decision is 1 only if the decided proposition holds. -/
theorem of_ofBool_decide {p : Prop} [Decidable p] (h : BitVec.ofBool (decide p) = 1#1) : p := by
  by_contra hn
  rw [decide_eq_false hn] at h
  exact absurd h (by decide)

/-- The precondition holds: the attention entries are real and no class's mask sum is zero. -/
theorem decode (a0 : FVec Ideal S2x16x1024x4096 .f32) (a1 : IVec S4x4096 32) (h : fn (F := Ideal) a0 a1 = fun _ => 1#1) :
    (∀ i, ∃ r : ℝ, a0 i = (r : EReal))
      ∧ ∀ cls : Fin 4, count (fun r : Fin 4096 => (FloatOps.sitofp (F := Ideal) .f32 (a1 (ix2 cls r)) : EReal)) ≠ 0 := by
  have h0 : fn (F := Ideal) a0 a1 ix0 = 1#1 := congrFun h ix0
  have h1 : IntOp.andi
      (Host.reduce IntOp.andi (cmpf .olt (Host.absf a0) (broadcastInDim S2x16x1024x4096 ![] bcast_S_S2x16x1024x4096 (constant (F := Ideal) S_ .f32 0x7F800000#32)))
        (constantI S_ 1 1#1) reducesTo_S2x16x1024x4096_S_d0_1_2_3 h_S_ ix0)
      (Host.reduce IntOp.andi (cmpf .une (Host.reduceAdd (sitofp (F := Ideal) .f32 a1) (constant (F := Ideal) S_ .f32 0x00000000#32) reducesTo_S4x4096_S4_d1 h_S_)
          (broadcastInDim S4 ![] bcast_S_S4 (constant (F := Ideal) S_ .f32 0x00000000#32)))
        (constantI S_ 1 1#1) reducesTo_S4_S_d0 h_S_ ix0) = 1#1 := h0
  obtain ⟨hfin, hcnt⟩ := IntOp.andi_eq_one.mp h1
  refine ⟨fun i => ?_, fun cls => ?_⟩
  · have e : BitVec.ofBool (decide (max (a0 i) (-(a0 i)) < Ideal.ofBits .f32 0x7F800000#32)) = 1#1 :=
      Host.reduce_andi_all _ _ reducesTo_S2x16x1024x4096_S_d0_1_2_3 h_S_ ix0 hfin i
    have hlt : max (a0 i) (-(a0 i)) < ⊤ := by
      have := of_ofBool_decide e
      rwa [posInf_eq] at this
    have hne_top : a0 i ≠ ⊤ := fun ht => by rw [ht] at hlt; simp at hlt
    have hne_bot : a0 i ≠ ⊥ := fun hb => by rw [hb] at hlt; simp at hlt
    exact ⟨(a0 i).toReal, (EReal.coe_toReal hne_top hne_bot).symm⟩
  · have e : BitVec.ofBool (decide (Host.reduceAdd (sitofp (F := Ideal) .f32 a1) (constant (F := Ideal) S_ .f32 0x00000000#32) reducesTo_S4x4096_S4_d1 h_S_ (ix1 cls)
        ≠ Ideal.ofBits .f32 0x00000000#32)) = 1#1 :=
      Host.reduce_andi_all _ _ reducesTo_S4_S_d0 h_S_ ix0 hcnt (ix1 cls)
    have hne := of_ofBool_decide e
    rw [hostReduceAdd_rows (sitofp (F := Ideal) .f32 a1) (constant (F := Ideal) S_ .f32 0x00000000#32) reducesTo_S4x4096_S4_d1 (by decide) h_S_ cls] at hne
    intro hc
    apply hne
    show count (fun r : Fin 4096 => (FloatOps.sitofp (F := Ideal) .f32 (a1 (ix2 cls r)) : EReal)) = zero
    rw [hc, zero_eq]

end Cert.Pre_finite_inputs.Decode

end
-- ==== Proof.ReferenceEntry.lean ====
/-
  The reference's result at one entry.

  Reading the reference's operations at an index, outermost first: the result at (c, b, s) is the mean over the sixteen
  heads — their sum from +0.0, over 16.0 — of the class-c masked sum of the softmax of row (b, h, s), over the class's
  mask sum; the softmax of a row is its shifted exponentials over their sum from +0.0; the shift is the row's maximum
  from -∞ (taken once more against -∞, which changes nothing).
-/
import proofs.«162008_j51453708206400_2_alg».proof.Proof.Gen.ReferenceIdeal.Read
import proofs.«162008_j51453708206400_2_alg».proof.Proof.MaskedMeanLaw

noncomputable section

namespace Cert.ReferenceIdeal.Entry

open Cert.ReferenceIdeal Cert.ReferenceIdeal.Gen Cert.ReferenceIdeal.Read Idealize.ShloMosaic Idealize.ShloMosaic.ValueIdx MaskedMean

local macro "idx1" : tactic => `(tactic| (funext a; apply Fin.ext; match a with | ⟨0, _⟩ => rfl))
local macro "idx2" : tactic => `(tactic| (funext a; apply Fin.ext; match a with | ⟨0, _⟩ => rfl | ⟨1, _⟩ => rfl))
local macro "idx3" : tactic => `(tactic| (funext a; apply Fin.ext; match a with | ⟨0, _⟩ => rfl | ⟨1, _⟩ => rfl | ⟨2, _⟩ => rfl))
local macro "idx4" : tactic => `(tactic| (funext a; apply Fin.ext; match a with | ⟨0, _⟩ => rfl | ⟨1, _⟩ => rfl | ⟨2, _⟩ => rfl | ⟨3, _⟩ => rfl))

variable (x0 : (⟨S2x16x1024x4096, .f32⟩ : BufTy).Contents (Elt Ideal)) (x1 : (⟨S4x4096, .i32⟩ : BufTy).Contents (Elt Ideal))

/-- Row (b, h, s) of the attention tensor. -/
abbrev attRow (b : Fin 2) (h : Fin 16) (s : Fin 1024) : Fin 4096 → EReal := fun r => x0 (ix4 b h s r)
/-- Row c of the mask, as extended reals. -/
abbrev maskRow (c : Fin 4) : Fin 4096 → EReal := fun r => FloatOps.sitofp (F := Ideal) .f32 (x1 (ix2 c r))

/-- The class's mask sum. -/
theorem count_apply (c : Fin 4) : val_main_v13 (F := Ideal) x1 (ix1 c) = count (maskRow x1 c) := by
  rw [val_main_v13_apply]
  show zero + _ = zero + _
  refine congrArg (zero + ·) (Finset.sum_congr rfl fun k _ => ?_)
  rw [val_main_v0_apply]
  exact congrArg (fun i => FloatOps.sitofp (F := Ideal) .f32 (x1 i)) (by idx2)

/-- The shift: the row's maximum. -/
theorem max_apply (b : Fin 2) (h : Fin 16) (s : Fin 1024) :
    val_main_v3 (F := Ideal) x0 (ix3 b h s) = rowMax (attRow x0 b h s) := by
  have hfold : val_main_v1 (F := Ideal) x0 (ix3 b h s) = rowMax (attRow x0 b h s) := by
    unfold val_main_v1
    refine (Host.reduce_eq_fold_single (FloatOps.maximumf (F := Ideal) (φ := .f32)) x0 (val_main_cst (F := Ideal))
      reducesTo_S2x16x1024x4096_S2x16x1024_d3 (by decide) h_S_ (ix3 b h s)).trans ?_
    unfold rowMax
    exact congrArg (fun f => Finset.fold max negInf f (Finset.univ : Finset (Fin 4096))) (funext fun k => congrArg x0 (by idx4))
  rw [val_main_v3_apply, val_main_v2_apply, val_main_cst_0_apply, hfold]
  show max negInf _ = _
  rw [negInf_eq]
  exact max_bot_left _

/-- The row's shifted exponentials. -/
theorem exp_apply (b : Fin 2) (h : Fin 16) (s : Fin 1024) (r : Fin 4096) :
    val_main_v7 (F := Ideal) x0 (ix4 b h s r) = E (attRow x0 b h s) r := by
  rw [val_main_v7_apply, val_main_v6_apply, val_main_v5_apply, val_main_v4_apply]
  rw [show idx_main_v4 (idx_main_v5 (ix4 b h s r)) = ix3 b h s from by idx3, max_apply]
  rfl

/-- Their sum, from +0.0. -/
theorem sum_apply (b : Fin 2) (h : Fin 16) (s : Fin 1024) :
    val_main_v8 (F := Ideal) x0 (ix3 b h s) = zero + Z (attRow x0 b h s) := by
  rw [val_main_v8_apply]
  show zero + _ = zero + _
  refine congrArg (zero + ·) (Finset.sum_congr rfl fun k _ => ?_)
  rw [show idx_main_v8 (ix3 b h s) k = ix4 b h s k from by idx4, exp_apply]

/-- The softmax of the row. -/
theorem softmax_apply (b : Fin 2) (h : Fin 16) (s : Fin 1024) (r : Fin 4096) :
    val_main_v11 (F := Ideal) x0 (ix4 b h s r) = Ideal.div (E (attRow x0 b h s) r) (zero + Z (attRow x0 b h s)) := by
  rw [val_main_v11_apply, val_main_v10_apply, val_main_v9_apply]
  rw [show idx_main_v9 (idx_main_v10 (ix4 b h s r)) = ix3 b h s from by idx3, sum_apply, exp_apply]
  rfl

/-- The class's masked sum of the softmax. -/
theorem dot_apply (c : Fin 4) (b : Fin 2) (h : Fin 16) (s : Fin 1024) :
    val_main_v12 (F := Ideal) x0 x1 (ix4 c b h s)
      = ∑ r : Fin 4096, maskRow x1 c r * Ideal.div (E (attRow x0 b h s) r) (zero + Z (attRow x0 b h s)) := by
  rw [val_main_v12_apply]
  refine Finset.sum_congr rfl fun k _ => ?_
  rw [show ridx_main_v12 (ix4 c b h s) k = ix4 b h s k from by idx4, softmax_apply, val_main_v0_apply]
  exact congrArg (fun i => FloatOps.sitofp (F := Ideal) .f32 (x1 i) * _) (show lidx_main_v12 (ix4 c b h s) k = ix2 c k from by idx2)

/-- The reference's result at (c, b, s): the softmax-first order of the specification. -/
theorem result_apply (c : Fin 4) (b : Fin 2) (s : Fin 1024) :
    val_main_v19 (F := Ideal) x0 x1 (ix3 c b s) = softmaxFirst (fun h : Fin 16 => attRow x0 b h s) (maskRow x1 c) := by
  rw [val_main_v19_apply, val_main_v18_apply, val_main_cst_4_apply, val_main_v17_apply]
  unfold softmaxFirst
  show Ideal.div (zero + _) sixteen = Ideal.div (zero + _) sixteen
  refine congrArg (fun t => Ideal.div (zero + t) sixteen) (Finset.sum_congr rfl fun h _ => ?_)
  rw [val_main_v16_apply, val_main_v15_apply, val_main_v14_apply]
  rw [show idx_main_v17 (ix3 c b s) h = ix4 c b h s from by idx4, dot_apply]
  rw [show idx_main_v14 (idx_main_v15 (ix4 c b h s)) = ix1 c from by idx1, count_apply]
  rfl

end Cert.ReferenceIdeal.Entry

end
-- ==== Proof.KernelPayload.lean ====
/-
  The kernel body's arithmetic at one entry.

  At a grid point the body holds one head's block x of the attention tensor, [2, 1, 256, 4096], the normalised mask w,
  [4, 4096], and the running block acc, [2, 256, 4]. What it stores at (b, s, c) is

      acc (b, s, c) + (Σ_r e(b, s, r) · w(c, r)) / (Σ_r e(b, s, r)),     e(b, s, r) = exp (x(b, 0, s, r) - max_r' x(b, 0, s, r')):

  the row's shifted exponentials contracted against row c of the mask, over their sum. The body gets there through a
  view of the block without its unit axis, two row reductions kept as columns and broadcast back, a transposed mask, one
  matrix product per batch entry and their stacking; each of those is read at an index here.
-/
import proofs.«162008_j51453708206400_2_alg».proof.Proof.Gen.KernelIdeal.Skeleton
import proofs.«162008_j51453708206400_2_alg».proof.Proof.MaskedMeanLaw
import proofs.«162008_j51453708206400_2_alg».proof.Proof.LibKeepdims

noncomputable section

namespace Cert.KernelIdeal.Payload

open Cert.KernelIdeal Cert.KernelIdeal.Gen Idealize.ShloMosaic Idealize.ShloMosaic.ValueIdx MaskedMean Keepdims

/-- The block with its unit head axis dropped. -/
def rows (x : Vec Ideal S2x1x256x4096 .f32) : FVec Ideal S2x256x4096 .f32 :=
  shapeCast S2x256x4096 x shapeCasts_S2x1x256x4096_S2x256x4096

/-- Each row's maximum. -/
def maxes (x : Vec Ideal S2x1x256x4096 .f32) : FVec Ideal S2x256 .f32 :=
  multiReduction .maximumf [2] S2x256 (rows x) 0xFF800000#32 reduces_S2x256x4096_S2x256 (.inl rfl) rfl

/-- The shifted exponentials. -/
def exps (x : Vec Ideal S2x1x256x4096 .f32) : FVec Ideal S2x256x4096 .f32 :=
  exp (subf (rows x) (broadcastTo S2x256x4096 (shapeCast S2x256x1 (maxes x) shapeCasts_S2x256_S2x256x1) broadcasts_S2x256x1_S2x256x4096))

/-- Each row's sum of them. -/
def sums (x : Vec Ideal S2x1x256x4096 .f32) : FVec Ideal S2x256 .f32 :=
  multiReduction .add [2] S2x256 (exps x) 0x00000000#32 reduces_S2x256x4096_S2x256 (.inl rfl) rfl

/-- The mask, transposed. -/
def maskT (w : Vec Ideal S4x4096 .f32) : FVec Ideal S4096x4 .f32 :=
  transpose S4096x4 [1, 0] (shapeCast S4x4096 w shapeCasts_S4x4096_S4x4096) transposes_S4x4096_p1_0_S4096x4

/-- One batch entry's exponentials against the mask. -/
def prod (y : FVec Ideal S2x256x4096 .f32) (wT : FVec Ideal S4096x4 .f32) (off : Fin 3 → ℕ) (h : S2x256x4096.Slices off S1x256x4096) :
    FVec Ideal S1x256x4 .f32 :=
  shapeCast S1x256x4 (matmul dot_S256x4096_S4096x4_S256x4_1_0_0_1_n_n none
    (shapeCast S256x4096 (extractStridedSlice S1x256x4096 off y h) shapeCasts_S1x256x4096_S256x4096) wT
    (constant S256x4 .f32 0x00000000#32)) shapeCasts_S256x4_S1x256x4

/-- The body's stored value, in these words. -/
theorem pay2_eq (x : Vec Ideal S2x1x256x4096 .f32) (w : Vec Ideal S4x4096 .f32) (acc : Vec Ideal S2x256x4 .f32) :
    k0_pay2 (F := Ideal) x w acc
      = addf (shapeCast S2x256x4 acc shapeCasts_S2x256x4_S2x256x4)
          (divf (concatenate S2x256x4 0 [⟨S1x256x4, prod (exps x) (maskT w) ![0, 0, 0] slices_S2x256x4096_o0_0_0_S1x256x4096⟩,
              ⟨S1x256x4, prod (exps x) (maskT w) ![1, 0, 0] slices_S2x256x4096_o1_0_0_S1x256x4096⟩] concatenates_S1x256x4_S1x256x4_S2x256x4_d0)
            (broadcastTo S2x256x4 (shapeCast S2x256x1 (sums x) shapeCasts_S2x256_S2x256x1) broadcasts_S2x256x1_S2x256x4)) := rfl

theorem rows_apply (x : Vec Ideal S2x1x256x4096 .f32) (b : Fin 2) (s : Fin 256) (r : Fin 4096) :
    rows x (ix3 b s r) = x (ix4 b (0 : Fin 1) s r) :=
  shapeCast_a1bc_abc_apply x _ b s r

/-- A row's maximum is the maximum of the row. -/
theorem maxes_apply (x : Vec Ideal S2x1x256x4096 .f32) (b : Fin 2) (s : Fin 256) :
    maxes x (ix2 b s) = rowMax (fun r : Fin 4096 => x (ix4 b (0 : Fin 1) s r)) := by
  unfold maxes rowMax
  refine (multiReduction_max_last3 (rows x) 0xFF800000#32 reduces_S2x256x4096_S2x256 (.inl rfl) rfl b s).trans ?_
  exact congrArg (fun f => Finset.fold max negInf f (Finset.univ : Finset (Fin 4096))) (funext fun r => rows_apply x b s r)

/-- The shifted exponentials of a row. -/
theorem exps_apply (x : Vec Ideal S2x1x256x4096 .f32) (b : Fin 2) (s : Fin 256) (r : Fin 4096) :
    exps x (ix3 b s r) = E (fun r : Fin 4096 => x (ix4 b (0 : Fin 1) s r)) r := by
  show Ideal.exp (rows x (ix3 b s r) - broadcastTo S2x256x4096 (shapeCast S2x256x1 (maxes x) shapeCasts_S2x256_S2x256x1) broadcasts_S2x256x1_S2x256x4096 (ix3 b s r)) = _
  rw [broadcastTo_ab1_abn_apply, shapeCast_ab_ab1_apply, maxes_apply, rows_apply]
  rfl

/-- A row's sum of exponentials. -/
theorem sums_apply (x : Vec Ideal S2x1x256x4096 .f32) (b : Fin 2) (s : Fin 256) :
    sums x (ix2 b s) = Z (fun r : Fin 4096 => x (ix4 b (0 : Fin 1) s r)) := by
  unfold sums Z
  refine (multiReduction_add_last3 (exps x) 0x00000000#32 reduces_S2x256x4096_S2x256 (.inl rfl) rfl b s).trans ?_
  exact Finset.sum_congr rfl fun r _ => exps_apply x b s r

theorem maskT_apply (w : Vec Ideal S4x4096 .f32) (r : Fin 4096) (c : Fin 4) : maskT w (ix2 r c) = w (ix2 c r) := by
  unfold maskT
  rw [transpose_ix2_apply, shapeCast_self]

/-- The matrix product of the body at an entry: the sum over the contracted axis. -/
theorem matmul_apply (L : FVec Ideal S256x4096 .f32) (Rm : FVec Ideal S4096x4 .f32) (s : Fin 256) (c : Fin 4) :
    matmul dot_S256x4096_S4096x4_S256x4_1_0_0_1_n_n none L Rm (constant S256x4 .f32 0x00000000#32) (ix2 s c)
      = ∑ r : Fin 4096, L (ix2 s r) * Rm (ix2 r c) := by
  simp only [matmul]
  rw [Ideal.matmul_constant_zero_apply, ← Equiv.sum_comp (contrEquiv1 dot_S256x4096_S4096x4_S256x4_1_0_0_1_n_n 4096 rfl rfl).symm]
  refine Finset.sum_congr rfl fun k _ => ?_
  have hk := contrEquiv1_symm_val dot_S256x4096_S4096x4_S256x4_1_0_0_1_n_n 4096 rfl rfl k
  have el : dot_S256x4096_S4096x4_S256x4_1_0_0_1_n_n.lhsIdx (ix2 s c) ((contrEquiv1 dot_S256x4096_S4096x4_S256x4_1_0_0_1_n_n 4096 rfl rfl).symm k) = ix2 s k :=
    funext fun a => Fin.ext (by
      match a with
      | ⟨0, _⟩ =>
        show (dot_S256x4096_S4096x4_S256x4_1_0_0_1_n_n.lhsIdx (ix2 s c) _ 0).val = s.val
        rw [DotDims.lhsIdx, dif_neg (show ¬(0 : Fin S256x4096.rank) ∈ dot_S256x4096_S4096x4_S256x4_1_0_0_1_n_n.lhsBatch by decide), dif_pos (show (0 : Fin S256x4096.rank) ∈ dot_S256x4096_S4096x4_S256x4_1_0_0_1_n_n.lhsNonContracting by decide)]
        rfl
      | ⟨1, _⟩ => exact (dot_S256x4096_S4096x4_S256x4_1_0_0_1_n_n.lhsIdx_val_of_single rfl _ _).trans hk)
  have er : dot_S256x4096_S4096x4_S256x4_1_0_0_1_n_n.rhsIdx (ix2 s c) ((contrEquiv1 dot_S256x4096_S4096x4_S256x4_1_0_0_1_n_n 4096 rfl rfl).symm k) = ix2 k c :=
    funext fun a => Fin.ext (by
      match a with
      | ⟨0, _⟩ => exact (dot_S256x4096_S4096x4_S256x4_1_0_0_1_n_n.rhsIdx_val_of_single rfl _ _).trans hk
      | ⟨1, _⟩ =>
        show (dot_S256x4096_S4096x4_S256x4_1_0_0_1_n_n.rhsIdx (ix2 s c) _ 1).val = c.val
        rw [DotDims.rhsIdx, dif_neg (show ¬(1 : Fin S4096x4.rank) ∈ dot_S256x4096_S4096x4_S256x4_1_0_0_1_n_n.rhsBatch by decide), dif_pos (show (1 : Fin S4096x4.rank) ∈ dot_S256x4096_S4096x4_S256x4_1_0_0_1_n_n.rhsNonContracting by decide)]
        rfl)
  rw [el, er]

/-- One batch entry's product at an entry. -/
theorem prod_apply (y : FVec Ideal S2x256x4096 .f32) (wT : FVec Ideal S4096x4 .f32) (off : Fin 3 → ℕ)
    (h : S2x256x4096.Slices off S1x256x4096) (b : Fin 2) (hoff : off = ![b.val, 0, 0]) (u : Fin 1) (s : Fin 256) (c : Fin 4) :
    prod y wT off h (ix3 u s c) = ∑ r : Fin 4096, y (ix3 b s r) * wT (ix2 r c) := by
  subst hoff
  unfold prod
  rw [shapeCast_ab_1ab_apply, matmul_apply]
  refine Finset.sum_congr rfl fun r _ => congrArg (· * _) ?_
  rw [shapeCast_1ab_ab_apply]
  exact extractStridedSlice_apply _ y h _ _ fun a => by
    match a with
    | ⟨0, _⟩ => show b.val = b.val + 0; omega
    | ⟨1, _⟩ => show s.val = 0 + s.val; omega
    | ⟨2, _⟩ => show r.val = 0 + r.val; omega

/-- The body's stored value at an entry: the running entry plus the head's term. -/
theorem pay2_apply (x : Vec Ideal S2x1x256x4096 .f32) (w : Vec Ideal S4x4096 .f32) (acc : Vec Ideal S2x256x4 .f32)
    (b : Fin 2) (s : Fin 256) (c : Fin 4) :
    k0_pay2 (F := Ideal) x w acc (ix3 b s c)
      = acc (ix3 b s c) + headTerm (fun r : Fin 4096 => x (ix4 b (0 : Fin 1) s r)) (fun r : Fin 4096 => w (ix2 c r)) := by
  rw [pay2_eq, addf_apply, divf_apply, shapeCast_self, broadcastTo_ab1_abn_apply, shapeCast_ab_ab1_apply, sums_apply]
  unfold headTerm
  refine congrArg (acc (ix3 b s c) + Ideal.div · _) ?_
  have hsum : ∀ (off : Fin 3 → ℕ) (h : S2x256x4096.Slices off S1x256x4096) (hoff : off = ![b.val, 0, 0]) (u : Fin 1),
      prod (exps x) (maskT w) off h (ix3 u s c)
        = ∑ r : Fin 4096, E (fun r : Fin 4096 => x (ix4 b (0 : Fin 1) s r)) r * w (ix2 c r) := fun off h hoff u => by
    rw [prod_apply _ _ off h b hoff]
    exact Finset.sum_congr rfl fun r _ => by rw [exps_apply, maskT_apply]
  obtain ⟨bv, hb⟩ := b
  interval_cases bv
  · refine (concatenate_pair_apply_left (0 : Fin S2x256x4.rank) _ _ concatenates_S1x256x4_S1x256x4_S2x256x4_d0 _ rfl (ix3 (0 : Fin 1) s c) fun a => ?_).trans (hsum _ _ rfl _)
    match a with
    | ⟨0, _⟩ => rfl
    | ⟨1, _⟩ => rfl
    | ⟨2, _⟩ => rfl
  · refine (concatenate_pair_apply_right (0 : Fin S2x256x4.rank) _ _ concatenates_S1x256x4_S1x256x4_S2x256x4_d0 _ rfl rfl (ix3 (0 : Fin 1) s c) (fun a ha => ?_) rfl).trans (hsum _ _ rfl _)
    match a with
    | ⟨0, _⟩ => exact absurd rfl ha
    | ⟨1, _⟩ => rfl
    | ⟨2, _⟩ => rfl

end Cert.KernelIdeal.Payload

end
-- ==== Proof.KernelPoints.lean ====
/-
  What the kernel's output block holds after each grid point.

  The grid is 4 row tiles × 16 heads, the head moving fastest: point t works on head t mod 16 of row tile t div 16, on
  the block x[:, t mod 16, 256 (t div 16) : 256 (t div 16) + 256, :] of the attention tensor and on the whole normalised
  mask. At a head 0 the body first clears its output block; at every point it adds the head's term to it. So after point
  t the block holds, at (b, s, c), from +0.0 the terms of heads 0 … t mod 16 of row 256 (t div 16) + s — by induction on
  the point. The normalised mask is what the host operations before the launch computed from the integer mask: each
  entry over its row's sum, over 16.
-/
import proofs.«162008_j51453708206400_2_alg».proof.Proof.Gen.KernelIdeal.Frame
import proofs.«162008_j51453708206400_2_alg».proof.Proof.KernelPayload
import Idealize.ShloMosaic.Lib.Pipeline.Value
import Idealize.ShloMosaic.Lib.StableHlo.Run
import Idealize.ShloMosaic.Lib.Tactic

noncomputable section

namespace Cert.KernelIdeal.Points

open Cert.KernelIdeal Cert.KernelIdeal.Gen Idealize.ShloMosaic Idealize.ShloMosaic.TcCoe Idealize.SL.Sem
open Idealize.ShloMosaic.ValueIdx MaskedMean Keepdims Cert.KernelIdeal.Payload
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The two cases of the body -/

/-- Away from head 0 the body leaves, in the output block holding `xo`, its stored value over `xo`. -/
theorem out_B (c : Dev nD) (i : grid0.Coords) (a2 : Memref sig .tc .vmem S2x1x256x4096 .f32) (h2 : a2.IsWhole)
    (a3 : Memref sig .tc .vmem S4x4096 .f32) (h3 : a3.IsWhole) (a4 : Memref sig .tc .vmem S2x256x4 .f32) (h4 : a4.IsWhole)
    (hc : ¬cond0_0 i) (x0 : Vec Ideal S2x1x256x4096 .f32) (x1 : Vec Ideal S4x4096 .f32) (xo : Vec Ideal S2x256x4 .f32) :
    out0_B_2 (F := Ideal) c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S2x1x256x4096) hz4,
    View.ld_unit_zero (S := S4x4096) hz2, View.ld_unit_zero (S := S2x256x4) hz3]

/-- At head 0 the body clears the block, reads the cleared block back, and leaves its stored value over it. -/
theorem out_A (c : Dev nD) (i : grid0.Coords) (a2 : Memref sig .tc .vmem S2x1x256x4096 .f32) (h2 : a2.IsWhole)
    (a3 : Memref sig .tc .vmem S4x4096 .f32) (h3 : a3.IsWhole) (a4 : Memref sig .tc .vmem S2x256x4 .f32) (h4 : a4.IsWhole)
    (hc : cond0_0 i) (x0 : Vec Ideal S2x1x256x4096 .f32) (x1 : Vec Ideal S4x4096 .f32) :
    out0_A_2 (F := Ideal) c i a2 h2 a3 h3 a4 h4 hc x0 x1 = k0_pay2 x0 x1 (k0_pay1 (F := Ideal)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S2x256x4) hz3, View.readCov_unit_zero (S := S2x256x4) _ hz3]
  simp only [View.readAt_eq_ld, h2.read_unread, h3.read_unread, View.ld_unit_zero (S := S2x1x256x4096) hz4,
    View.ld_unit_zero (S := S4x4096) hz2]

/-! ## The blocks the body is given -/

/-- The printed index maps, decided over the grid: the attention block of point t is head t mod 16 of row tile t div 16;
    the mask's one block is the whole mask; the output block is row tile t div 16. -/
theorem idx_facts : ∀ t : Fin cfg0.N,
    win0_0.index t (0 : Fin 4) = 0 ∧ win0_0.index t (1 : Fin 4) = t.val % 16 ∧ win0_0.index t (2 : Fin 4) = t.val / 16
    ∧ win0_0.index t (3 : Fin 4) = 0 ∧ win0_1.index t (0 : Fin 2) = 0 ∧ win0_1.index t (1 : Fin 2) = 0
    ∧ win0_2.index t (0 : Fin 3) = 0 ∧ win0_2.index t (1 : Fin 3) = t.val / 16 ∧ win0_2.index t (2 : Fin 3) = 0 :=
  (by decide +kernel : ∀ t : Fin grid0.N, _)

theorem N_eq : cfg0.N = 64 := N_0

/-- The head of point t. -/
def headOf (t : ℕ) : Fin 16 := ⟨t % 16, Nat.mod_lt _ (by decide)⟩
/-- Row s of point t's row tile. -/
def rowOf (t : ℕ) (ht : t < 64) (s : Fin 256) : Fin 1024 := ⟨t / 16 * 256 + s.val, by have := s.isLt; omega⟩

/-- Row (b, h, s) of the attention tensor at launch. -/
abbrev att (c : Dev nD) (b : Fin 2) (h : Fin 16) (s : Fin 1024) : Fin 4096 → EReal :=
  fun r => m ((c : Thread nD τ).loc main_arg0) (ix4 b h s r)
/-- Row c of the mask at launch, as extended reals. -/
abbrev msk (c : Dev nD) (cls : Fin 4) : Fin 4096 → EReal :=
  fun r => FloatOps.sitofp (F := Ideal) .f32 (m ((c : Thread nD τ).loc main_arg1) (ix2 cls r))

/-- The attention block of point t, at (b, 0, s, r), is the tensor at (b, t mod 16, 256 (t div 16) + s, r). -/
theorem iblk0_apply (c : Dev nD) (t : Fin cfg0.N) (b : Fin 2) (s : Fin 256) (r : Fin 4096) :
    (iblk m c 0 t : Vec Ideal S2x1x256x4096 .f32) (ix4 b (0 : Fin 1) s r)
      = att m c b (headOf t.val) (rowOf t.val (lt_of_lt_of_eq t.isLt N_eq) s) r := by
  obtain ⟨e0, e1, e2, e3, -⟩ := idx_facts t
  unfold iblk
  rw [View.read_apply]
  show V m c main_arg0 (((cfg0.win 0).blk t).view.emb (ix4 b (0 : Fin 1) s r)) = _
  rw [V_main_arg0]
  refine congrArg (m ((c : Thread nD τ).loc main_arg0)) (funext fun a => Fin.ext ?_)
  match a with
  | ⟨0, _⟩ => show win0_0.index t (0 : Fin 4) * 2 + 1 * b.val = b.val; rw [e0]; omega
  | ⟨1, _⟩ => show win0_0.index t (1 : Fin 4) * 1 + 1 * 0 = t.val % 16; rw [e1]; omega
  | ⟨2, _⟩ => show win0_0.index t (2 : Fin 4) * 256 + 1 * s.val = t.val / 16 * 256 + s.val; rw [e2]; omega
  | ⟨3, _⟩ => show win0_0.index t (3 : Fin 4) * 4096 + 1 * r.val = r.val; rw [e3]; omega

/-- The mask block of any point is the whole array the host operations before the launch wrote. -/
theorem iblk1_apply (c : Dev nD) (t : Fin cfg0.N) (cls : Fin 4) (r : Fin 4096) :
    (iblk m c 1 t : Vec Ideal S4x4096 .f32) (ix2 cls r) = (V m c main_v6 : S4x4096.Idx → EReal) (ix2 cls r) := by
  obtain ⟨-, -, -, -, e4, e5, -⟩ := idx_facts t
  unfold iblk
  rw [View.read_apply]
  show V m c main_v6 (((cfg0.win 1).blk t).view.emb (ix2 cls r)) = _
  refine congrArg (V m c main_v6) (funext fun a => Fin.ext ?_)
  match a with
  | ⟨0, _⟩ => show win0_1.index t (0 : Fin 2) * 4 + 1 * cls.val = cls.val; rw [e4]; omega
  | ⟨1, _⟩ => show win0_1.index t (1 : Fin 2) * 4096 + 1 * r.val = r.val; rw [e5]; omega

/-- What the host operations before the launch leave in the kernel's second operand: the mask as reals, each entry over
    its row's sum, over 16.0. -/
theorem V_mask (c : Dev nD) : (V m c main_v6 : S4x4096.Idx → EReal)
    = Host.divf (Host.divf (sitofp (F := Ideal) .f32 (m ((c : Thread nD τ).loc main_arg1)))
        (broadcastInDim S4x4096 ![0, 1] bcast_S4x1_S4x4096_0_1 (broadcastInDim S4x1 ![0] bcast_S4_S4x1_0
          (Host.reduceAdd (sitofp (F := Ideal) .f32 (m ((c : Thread nD τ).loc main_arg1))) (constant (F := Ideal) S_ .f32 0x00000000#32) reducesTo_S4x4096_S4_d1 h_S_))))
      (broadcastInDim S4x4096 ![] bcast_S_S4x4096 (constant (F := Ideal) S_ .f32 0x41800000#32)) := by
  show StableHlo.after hostOps0 (fun b => m (c, b)) (Proc.devRef .tc main_v6) = _
  after_results

/-- The host's quotient at an index is the quotient of the elements. -/
theorem hostDivf_apply {s : Shape} {φ : FTy} (x y : FVec Ideal s φ) (i : s.Idx) : Host.divf x y i = Ideal.div (x i) (y i) := rfl

/-- At (c, r) it is the specification's normalised mask. -/
theorem V_mask_apply (c : Dev nD) (cls : Fin 4) (r : Fin 4096) :
    (V m c main_v6 : S4x4096.Idx → EReal) (ix2 cls r) = normMask (msk m c cls) r := by
  rw [V_mask, hostDivf_apply, hostDivf_apply, sitofp_apply,
    broadcastInDim_apply _ bcast_S_S4x4096 _ (ix2 cls r) ix0 (fun a => a.elim0), constant_apply,
    broadcastInDim_apply _ bcast_S4x1_S4x4096_0_1 _ (ix2 cls r) (ix2 cls (0 : Fin 1)) (fun a => match a with
      | ⟨0, _⟩ => by show cls.val = if (4 : Nat) = 1 then 0 else cls.val; rw [if_neg (by decide)]
      | ⟨1, _⟩ => by show 0 = if (1 : Nat) = 1 then 0 else r.val; rw [if_pos rfl]),
    broadcastInDim_apply _ bcast_S4_S4x1_0 _ (ix2 cls (0 : Fin 1)) (ix1 cls) (fun a => match a with
      | ⟨0, _⟩ => by show cls.val = if (4 : Nat) = 1 then 0 else cls.val; rw [if_neg (by decide)]),
    hostReduceAdd_rows _ _ reducesTo_S4x4096_S4_d1 (by decide) h_S_ cls]
  rfl

/-! ## The running block -/

/-- The head-h term of output entry (b, S, c). -/
abbrev term (c : Dev nD) (b : Fin 2) (S : Fin 1024) (cls : Fin 4) (h : ℕ) : EReal :=
  headTerm (att m c b (headOf h) S) (normMask (msk m c cls))

/-- What point t adds at (b, s, c): its head's term of row 256 (t div 16) + s. -/
theorem point_term (c : Dev nD) (t : Fin cfg0.N) (b : Fin 2) (s : Fin 256) (cls : Fin 4) :
    headTerm (fun r : Fin 4096 => (iblk m c 0 t : Vec Ideal S2x1x256x4096 .f32) (ix4 b (0 : Fin 1) s r))
        (fun r : Fin 4096 => (iblk m c 1 t : Vec Ideal S4x4096 .f32) (ix2 cls r))
      = term m c b (rowOf t.val (lt_of_lt_of_eq t.isLt N_eq) s) cls t.val := by
  have e0 : (fun r : Fin 4096 => (iblk m c 0 t : Vec Ideal S2x1x256x4096 .f32) (ix4 b (0 : Fin 1) s r))
      = att m c b (headOf t.val) (rowOf t.val (lt_of_lt_of_eq t.isLt N_eq) s) := funext fun r => iblk0_apply m c t b s r
  have e1 : (fun r : Fin 4096 => (iblk m c 1 t : Vec Ideal S4x4096 .f32) (ix2 cls r)) = normMask (msk m c cls) :=
    funext fun r => (iblk1_apply m c t cls r).trans (V_mask_apply m c cls r)
  rw [e0, e1]

/-- After point n the output block holds, at (b, s, c), from +0.0 the terms of heads 0 … n mod 16 of its row. -/
theorem outsAt_apply (c : Dev nD) : ∀ (n : ℕ) (hn : n < cfg0.N) (b : Fin 2) (s : Fin 256) (cls : Fin 4),
    outsAt0 m c n hn (ix3 b s cls)
      = zero + ∑ h ∈ Finset.range (n % 16 + 1), term m c b (rowOf n (lt_of_lt_of_eq hn N_eq) s) cls h := by
  intro n
  induction n with
  | zero =>
    intro hn b s cls
    rw [outsAt0_A m c ⟨0, hn⟩ rfl, out_A, pay2_apply, point_term]
    show zero + _ = zero + _
    rw [Finset.sum_range_one]
  | succ n ih =>
    intro hn b s cls
    have hN : n + 1 < 64 := lt_of_lt_of_eq hn N_eq
    by_cases h0 : (n + 1) % 16 = 0
    · rw [outsAt0_A m c ⟨n + 1, hn⟩ h0, out_A, pay2_apply, point_term]
      show zero + _ = zero + _
      rw [h0, Finset.sum_range_one]
      refine congrArg (zero + ·) ?_
      show term m c b _ cls (n + 1) = term m c b _ cls 0
      unfold term headOf
      simp only [h0, Nat.zero_mod]
    · rw [outsAt0_B m c ⟨n + 1, hn⟩ h0, out_B, pay2_apply, point_term]
      show outsAt0 m c n _ (ix3 b s cls) + _ = _
      rw [ih (Nat.lt_of_succ_lt hn) b s cls]
      have hr : rowOf n (by omega) s = rowOf (n + 1) hN s := Fin.ext (by show n / 16 * 256 + s.val = (n + 1) / 16 * 256 + s.val; omega)
      have hm : (n + 1) % 16 = n % 16 + 1 := by omega
      rw [hm, Finset.sum_range_succ (n := n % 16 + 1), hr, add_assoc]
      refine congrArg (zero + ·) (congrArg (_ + ·) ?_)
      show term m c b _ cls (n + 1) = term m c b _ cls (n % 16 + 1)
      unfold term headOf
      have hh : (n + 1) % 16 = (n % 16 + 1) % 16 := by omega
      simp only [hh]

end Cert.KernelIdeal.Points

end
-- ==== Proof.KernelRun.lean ====
/-
  The kernel's result array.

  The output block of a row tile is written back once, after its last head (the points t with t mod 16 = 15), holding
  at (b, s, c) from +0.0 the sixteen heads' terms of row 256 (t div 16) + s: block t div 16 of ONE whole-array function,
  the specification's mask-first entry at (b, S, c). The four row tiles cover the [2, 1024, 4] array, so after the launch
  it holds that function, and the transpose after the launch moves entry (b, S, c) to (c, b, S).
-/
import proofs.«162008_j51453708206400_2_alg».proof.Proof.KernelPoints

noncomputable section

namespace Cert.KernelIdeal.Result

open Cert.KernelIdeal Cert.KernelIdeal.Gen Idealize.ShloMosaic Idealize.ShloMosaic.TcCoe Idealize.SL.Sem
open Idealize.ShloMosaic.ValueIdx MaskedMean Keepdims Cert.KernelIdeal.Payload Cert.KernelIdeal.Points
open Idealize.ShloMosaic.Pipeline (Dat)

variable (m : (ℓ : Loc nD τ sig) → Buf (Elt Ideal) ℓ) (ρ : Dev nD → PrngReg)

/-- Output entry (b, S, c) in the mask-first order, from the launch memory. -/
def entry (c : Dev nD) (b : Fin 2) (S : Fin 1024) (cls : Fin 4) : EReal :=
  maskFirst (fun h : Fin 16 => att m c b h S) (msk m c cls)

/-- The [2, 1024, 4] array of them. -/
def G (c : Dev nD) : S2x1024x4.Idx → EReal := fun j => entry m c (j 0) (j 1) (j 2)

/-- The sixteen heads' terms, counted by a natural number, are the sum over the heads. -/
theorem entry_eq (c : Dev nD) (b : Fin 2) (S : Fin 1024) (cls : Fin 4) :
    zero + ∑ h ∈ Finset.range 16, term m c b S cls h = entry m c b S cls := by
  unfold entry maskFirst
  refine congrArg (zero + ·) ?_
  rw [Finset.sum_range]
  refine Finset.sum_congr rfl fun h _ => ?_
  show headTerm (att m c b (headOf h.val) S) _ = headTerm (att m c b h S) _
  rw [show headOf h.val = h from Fin.ext (Nat.mod_eq_of_lt h.isLt)]

/-- What a point after a last head writes back is its block of `G`. -/
theorem flushed_eq (c : Dev nD) (t : Fin cfg0.N) (hf : (cfg0.win 2).flush t = true) :
    (dats m 0 c).flushed 2 t = ((cfg0.win 2).blk t).view.read (Elt Ideal) (G m c) := by
  have h15 : t.val % 16 = 15 := (flush0_2 t).mp hf
  have hN : t.val < 64 := lt_of_lt_of_eq t.isLt N_eq
  obtain ⟨-, -, -, -, -, -, e6, e7, e8⟩ := idx_facts t
  show (cfg0.win 2).cut (grid0.coords t) ((dats m 0 c).after 2 t) = _
  rw [after0_2]
  funext y
  obtain ⟨b, s, cls, rfl⟩ : ∃ (b : Fin 2) (s : Fin 256) (cls : Fin 4), y = ix3 b s cls := ⟨y 0, y 1, y 2, eq_ix3 y⟩
  rw [View.read_apply]
  refine (outsAt_apply m c t.val t.isLt b s cls).trans ?_
  rw [h15]
  refine (entry_eq m c b (rowOf t.val hN s) cls).trans ?_
  show entry m c b (rowOf t.val hN s) cls = entry m c _ _ _
  have hb : (((cfg0.win 2).blk t).view.emb (ix3 b s cls) : S2x1024x4.Idx) 0 = b := Fin.ext (by
    show win0_2.index t (0 : Fin 3) * 2 + 1 * b.val = b.val; rw [e6]; omega)
  have hs : (((cfg0.win 2).blk t).view.emb (ix3 b s cls) : S2x1024x4.Idx) 1 = rowOf t.val hN s := Fin.ext (by
    show win0_2.index t (1 : Fin 3) * 256 + 1 * s.val = t.val / 16 * 256 + s.val; rw [e7]; omega)
  have hc : (((cfg0.win 2).blk t).view.emb (ix3 b s cls) : S2x1024x4.Idx) 2 = cls := Fin.ext (by
    show win0_2.index t (2 : Fin 3) * 4 + 1 * cls.val = cls.val; rw [e8]; omega)
  rw [hb, hs, hc]

/-- An index of the array is in point t's block iff each coordinate is in the block's range on its axis. -/
theorem mem_blk (t : Fin cfg0.N) (i : S2x1024x4.Idx) :
    i ∈ ((cfg0.win 2).blk t).view.set ↔ ∀ a : Fin 3, win0_2.index t a * S2x256x4.size a ≤ (i a).val ∧ (i a).val < win0_2.index t a * S2x256x4.size a + S2x256x4.size a := by
  show i ∈ ((View.whole main_v7).slice (win0_2.rect t)).set ↔ _
  rw [View.set_slice_whole, Rect.mem_set_unit]
  exact Iff.rfl

/-- Every index of the array is in the block some last head writes back: row S is in row tile S div 256. -/
theorem cover (i : S2x1024x4.Idx) : ∃ t : Fin cfg0.N, (cfg0.win 2).flush t = true ∧ i ∈ ((cfg0.win 2).blk t).view.set := by
  have h0 : (i 0).val < 2 := (i 0).isLt
  have h1 : (i 1).val < 1024 := (i 1).isLt
  have h2 : (i 2).val < 4 := (i 2).isLt
  have ht : (i 1).val / 256 * 16 + 15 < cfg0.N := by rw [N_eq]; omega
  refine ⟨⟨(i 1).val / 256 * 16 + 15, ht⟩, (flush0_2 _).mpr (by show ((i 1).val / 256 * 16 + 15) % 16 = 15; omega), ?_⟩
  obtain ⟨-, -, -, -, -, -, e6, e7, e8⟩ := idx_facts ⟨(i 1).val / 256 * 16 + 15, ht⟩
  rw [mem_blk]
  intro a
  match a with
  | ⟨0, _⟩ =>
    show win0_2.index _ (0 : Fin 3) * 2 ≤ (i 0).val ∧ (i 0).val < win0_2.index _ (0 : Fin 3) * 2 + 2
    rw [e6]; omega
  | ⟨1, _⟩ =>
    show win0_2.index _ (1 : Fin 3) * 256 ≤ (i 1).val ∧ (i 1).val < win0_2.index _ (1 : Fin 3) * 256 + 256
    rw [e7]; show ((i 1).val / 256 * 16 + 15) / 16 * 256 ≤ (i 1).val ∧ (i 1).val < ((i 1).val / 256 * 16 + 15) / 16 * 256 + 256; omega
  | ⟨2, _⟩ =>
    show win0_2.index _ (2 : Fin 3) * 4 ≤ (i 2).val ∧ (i 2).val < win0_2.index _ (2 : Fin 3) * 4 + 4
    rw [e8]; omega

/-- So the kernel's output array ends holding `G`. -/
theorem final (c : Dev nD) : (dats m 0 c).arrAt 2 cfg0.N = G m c :=
  (dats m 0 c).arrAt_eq_of_cover 2 (G m c) (fun t hf => flushed_eq m c t hf) cover

/-- The result: `G` with the class axis moved to the front. -/
abbrev result (c : Dev nD) : Buf (Elt Ideal) ((c : Thread nD τ).loc main_v8) :=
  transpose S4x2x1024 [2, 0, 1] (G m c) transposes_S2x1024x4_S4x2x1024_2_0_1

/-- The host operation after the launch leaves it in the result buffer. -/
theorem tail_eq (c : Dev nD) :
    Pipeline.afterTail₀ cfgs (dats m) 0 (V0 m) [hostOps1] c main_v8 = result m c := by
  unfold Pipeline.afterTail₀
  show StableHlo.after hostOps1 _ (Proc.devRef .tc main_v8) = _
  after_results
  rw [Pipeline.withArrays_arr spec0 launch0.win.arr_inj c _ _ 2, final]

/-- The run, read: the result buffer at the transposed `G`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The result at (c, b, S) is output entry (b, S, c). -/
theorem result_apply (c : Dev nD) (cls : Fin 4) (b : Fin 2) (S : Fin 1024) :
    result m c (ix3 cls b S) = entry m c b S cls :=
  transpose_apply _ (G m c) transposes_S2x1024x4_S4x2x1024_2_0_1 (ix3 cls b S) (ix3 b S cls) fun a =>
    match a with
    | ⟨0, _⟩ => rfl
    | ⟨1, _⟩ => rfl
    | ⟨2, _⟩ => rfl

end Cert.KernelIdeal.Result

end
-- ==== Proof.lean ====
/-
  The certificate: a masked, class-normalised mean over heads of a softmax, against its jnp reference.

  The kernel streams the attention tensor once: per row tile and head it takes the row's shifted exponentials, contracts
  them against the mask already normalised by its row sums and by the number of heads, divides by the exponentials' sum,
  and accumulates over the heads in its output block. The reference takes the softmax first, contracts it against the
  mask, divides by the mask's row sums, and takes the mean over heads. Over the extended reals the two agree entry by
  entry as soon as the attention entries are finite and no class's mask sum is zero (Proof/MaskedMeanLaw.lean): then every
  quantity is a real number and the two orders are one real expression. The precondition states exactly those two
  things (Proof/Precondition.lean).

  The kernel's entries are read off its run point by point (Proof/KernelPayload.lean, Proof/KernelPoints.lean,
  Proof/KernelRun.lean), the reference's off its operations (Proof/ReferenceEntry.lean). The three programs' frames are
  the kernel's generated frames and the reference's generated run; nothing was rewritten in the idealization, so there is
  nothing to preserve.
-/
import proofs.«162008_j51453708206400_2_alg».proof.Defs
import proofs.«162008_j51453708206400_2_alg».proof.Proof.Gen.Kernel
import proofs.«162008_j51453708206400_2_alg».proof.Proof.Gen.Kernel.Skeleton
import proofs.«162008_j51453708206400_2_alg».proof.Proof.Gen.Kernel.Launch
import proofs.«162008_j51453708206400_2_alg».proof.Proof.Gen.Kernel.Points
import proofs.«162008_j51453708206400_2_alg».proof.Proof.Gen.Kernel.Frame
import proofs.«162008_j51453708206400_2_alg».proof.Proof.Gen.KernelIdeal
import proofs.«162008_j51453708206400_2_alg».proof.Proof.Gen.KernelIdeal.Skeleton
import proofs.«162008_j51453708206400_2_alg».proof.Proof.Gen.KernelIdeal.Launch
import proofs.«162008_j51453708206400_2_alg».proof.Proof.Gen.KernelIdeal.Points
import proofs.«162008_j51453708206400_2_alg».proof.Proof.Gen.KernelIdeal.Frame
import proofs.«162008_j51453708206400_2_alg».proof.Proof.Gen.ReferenceIdeal
import proofs.«162008_j51453708206400_2_alg».proof.Proof.Gen.ReferenceIdeal.Run
import proofs.«162008_j51453708206400_2_alg».proof.Proof.Gen.ReferenceIdeal.Read
import proofs.«162008_j51453708206400_2_alg».proof.Proof.Gen.Pre_finite_inputs
import proofs.«162008_j51453708206400_2_alg».proof.Proof.MaskedMeanLaw
import proofs.«162008_j51453708206400_2_alg».proof.Proof.Precondition
import proofs.«162008_j51453708206400_2_alg».proof.Proof.ReferenceEntry
import proofs.«162008_j51453708206400_2_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx MaskedMean

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Entry by entry the kernel's result is the reference's: the mask-first and the softmax-first orders of one real
    expression, the attention entries being finite and the mask sums not zero. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v19_eq]
  obtain ⟨hfin, hcnt⟩ := Cert.Pre_finite_inputs.Decode.decode _ _ (hpre c)
  funext j
  obtain ⟨cls, b, S, rfl⟩ : ∃ (cls : Fin 4) (b : Fin 2) (S : Fin 1024), j = ix3 cls b S := ⟨j 0, j 1, j 2, eq_ix3 j⟩
  show _ = Cert.KernelIdeal.Result.result m c (ix3 cls b S)
  rw [Cert.ReferenceIdeal.Entry.result_apply, Cert.KernelIdeal.Result.result_apply]
  exact (kernel_eq_reference _ _ (fun h r => hfin _) (fun r => ⟨_, rfl⟩) (hcnt cls)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
